-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x1 : Shape := ⟨2, ![16, 1]⟩
abbrev S10000x16 : Shape := ⟨2, ![10000, 16]⟩
abbrev S400x10000 : Shape := ⟨2, ![400, 10000]⟩
abbrev S400x16 : Shape := ⟨2, ![400, 16]⟩
abbrev S16x10000 : Shape := ⟨2, ![16, 10000]⟩
abbrev S16x400 : Shape := ⟨2, ![16, 400]⟩
abbrev S400 : Shape := ⟨1, ![400]⟩
abbrev S1x400 : Shape := ⟨2, ![1, 400]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S16x1, .f32⟩
  | .local _ .vmem, ⟨3, _⟩ => ⟨S400x10000, .f32⟩
  | .local _ .vmem, ⟨4, _⟩ => ⟨S400x10000, .f32⟩
  | .local _ .vmem, ⟨5, _⟩ => ⟨S400x16, .f32⟩
  | .local _ .vmem, ⟨6, _⟩ => ⟨S400x16, .f32⟩
  | .local _ .vmem, ⟨7, _⟩ => ⟨S16x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16_S16x1 : S16.ShapeCasts S16x1
  inb_S128x16_S128x16_0_0 : ∀ a, (![0, 0] : Fin 2 → Nat) a + S128x16.size a ≤ S128x16.size a
  h_S128x16 : 0 < S128x16.numel
  inb_S10000x128_S10000x128_0_0 : ∀ a, (![0, 0] : Fin 2 → Nat) a + S10000x128.size a ≤ S10000x128.size a
  h_S10000x128 : 0 < S10000x128.numel
  inb_S16x10000_S16x10000_0_0 : ∀ a, (![0, 0] : Fin 2 → Nat) a + S16x10000.size a ≤ S16x10000.size a
  h_S16x10000 : 0 < S16x10000.numel
  shapeCasts_S16x10000_S16x10000 : S16x10000.ShapeCasts S16x10000
  inb_S400x10000_S400x10000_0_0 : ∀ a, (![0, 0] : Fin 2 → Nat) a + S400x10000.size a ≤ S400x10000.size a
  h_S400x10000 : 0 < S400x10000.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x400 : S16x1.Broadcasts S16x400
  reduces_S16x400_S400 : S16x400.Reduces [0] S400
  shapeCasts_S400_S1x400 : S400.ShapeCasts S1x400
  broadcasts_S1x400_S16x400 : S1x400.Broadcasts S16x400
  transposes_S16x400_p1_0_S400x16 : S16x400.Transposes [1, 0] S400x16
  inb_S400x16_S400x16_0_0 : ∀ a, (![0, 0] : Fin 2 → Nat) a + S400x16.size a ≤ S400x16.size a
  h_S400x16 : 0 < S400x16.numel
  dot_S128x16_S10000x128_S16x10000_0_1_1_0_n_n_wf : DotDims.WF S128x16 S10000x128 S16x10000 [0] [1] [1] [0] [] []
  dot_S16x10000_S400x10000_S16x400_1_1_0_0_n_n_wf : DotDims.WF S16x10000 S400x10000 S16x400 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x16.size a ≤ S10000x16.size a
  hwx0_4 : ∀ i : grid0.Coords, EltTy.bits .f32 = 32 ∨ (Rect.block (s := S10000x16) S400x16.size (cc0_transform_4 i) (hinb0_4 i)).WholeWords (EltTy.packing .f32)

variable [Facts₀]

def dot_S128x16_S10000x128_S16x10000_0_1_1_0_n_n : DotDims S128x16 S10000x128 S16x10000 where
  lhsContracting := [0]
  rhsContracting := [1]
  lhsNonContracting := [1]
  rhsNonContracting := [0]
  lhsBatch := []
  rhsBatch := []
  wf := dot_S128x16_S10000x128_S16x10000_0_1_1_0_n_n_wf
def dot_S16x10000_S400x10000_S16x400_1_1_0_0_n_n : DotDims S16x10000 S400x10000 S16x400 where
  lhsContracting := [1]
  rhsContracting := [1]
  lhsNonContracting := [0]
  rhsNonContracting := [0]
  lhsBatch := []
  rhsBatch := []
  wf := dot_S16x10000_S400x10000_S16x400_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S10000x16, .f32⟩
  | .hbm, ⟨6, _⟩ => ⟨S1x16, .f32⟩
  | .hbm, ⟨7, _⟩ => ⟨S10000x16, .f32⟩
  | .hbm, ⟨8, _⟩ => ⟨S10000x16, .f32⟩
  | .hbm, ⟨9, _⟩ => ⟨S_, .f32⟩
  | .hbm, ⟨10, _⟩ => ⟨S10000, .f32⟩
  | .hbm, ⟨11, _⟩ => ⟨S_, .f32⟩
  | .hbm, ⟨12, _⟩ => ⟨S10000, .f32⟩
  | .hbm, ⟨13, _⟩ => ⟨S10000, .f32⟩
  | .hbm, ⟨14, _⟩ => ⟨S10000x1, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S_, .f32⟩
  | .hbm, ⟨19, _⟩ => ⟨S10000, .f32⟩
  | .hbm, ⟨20, _⟩ => ⟨S10000x1, .f32⟩
  | .hbm, ⟨21, _⟩ => ⟨S10000x1, .f32⟩
  | .hbm, ⟨22, _⟩ => ⟨S10000x16, .f32⟩
  | .hbm, ⟨23, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.GcnRefRun.lean ====
/-
  The reference program's run, read back. Its @main is a straight line of twenty host operations (jax's outlined
  `log_softmax` stands inline at its call): two matrix products, the bias broadcast and added, then the row maximum
  (taken from −∞, and once more against −∞), the shift, the exponentials' row sums, their logarithm, and the final
  subtraction. Every weakly fair execution terminates with the result buffer at the composition of those operations on
  the argument arrays and with the arguments unchanged. The composition is named in four stages — `logits`, `rowMax`,
  `shifted`, `logSoftmax` — so that what the run leaves is one short term.
-/
import proofs.«175306_g8718783611330_retrytranche1_1952_17_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The four stages -/

/-- `adj · (x · W) + b`, the bias broadcast over the rows. -/
def logits (x0 : (⟨S10000x128, .f32⟩ : BufTy).Contents (Elt F)) (x1 : (⟨S10000x10000, .f32⟩ : BufTy).Contents (Elt F))
    (x2 : (⟨S128x16, .f32⟩ : BufTy).Contents (Elt F)) (x3 : (⟨S16, .f32⟩ : BufTy).Contents (Elt F)) :
    (⟨S10000x16, .f32⟩ : BufTy).Contents (Elt F) :=
  addf (Host.dotGeneral dot_S10000x10000_S10000x16_S10000x16_1_0_0_1_n_n none x1 (Host.dotGeneral dot_S10000x128_S128x16_S10000x16_1_0_0_1_n_n none x0 x2))
    (broadcastInDim S10000x16 ![0, 1] bcast_S1x16_S10000x16_0_1 (broadcastInDim S1x16 ![1] bcast_S16_S1x16_1 x3))

/-- Each row's maximum, folded from −∞, then taken against −∞ once more. -/
def rowMax (z : (⟨S10000x16, .f32⟩ : BufTy).Contents (Elt F)) : (⟨S10000, .f32⟩ : BufTy).Contents (Elt F) :=
  maximumf (broadcastInDim S10000 ![] bcast_S_S10000 (constant S_ .f32 0xFF800000#32))
    (Host.reduce FloatOps.maximumf z (constant S_ .f32 0xFF800000#32) reducesTo_S10000x16_S10000_d1 h_S_)

/-- The rows with their maximum taken off. -/
def shifted (z : (⟨S10000x16, .f32⟩ : BufTy).Contents (Elt F)) : (⟨S10000x16, .f32⟩ : BufTy).Contents (Elt F) :=
  subf z (broadcastInDim S10000x16 ![0, 1] bcast_S10000x1_S10000x16_0_1 (broadcastInDim S10000x1 ![0] bcast_S10000_S10000x1_0 (rowMax z)))

/-- The shifted rows less the logarithm of their exponentials' sum. -/
def logSoftmax (z : (⟨S10000x16, .f32⟩ : BufTy).Contents (Elt F)) : (⟨S10000x16, .f32⟩ : BufTy).Contents (Elt F) :=
  subf (shifted z) (broadcastInDim S10000x16 ![0, 1] bcast_S10000x1_S10000x16_0_1 (Host.log (broadcastInDim S10000x1 ![0] bcast_S10000_S10000x1_0
    (Host.reduceAdd (Host.exp (shifted z)) (constant S_ .f32 0x00000000#32) reducesTo_S10000x16_S10000_d1 h_S_))))

/-! ## @main as a list of operations -/

/-- @main's twenty operations, in order; the called function's operations stand in its call's place, over the call's buffers. -/
abbrev ops : List (HloOp τ sig (Elt F)) :=
  [ binary main_arg0 main_arg2 main_v0 ((fun l r => Host.dotGeneral dot_S10000x128_S128x16_S10000x16_1_0_0_1_n_n none l r) : (⟨S10000x128, .f32⟩ : BufTy).Contents (Elt F) → (⟨S128x16, .f32⟩ : BufTy).Contents (Elt F) → (⟨S10000x16, .f32⟩ : BufTy).Contents (Elt F)),
    binary main_arg1 main_v0 main_v1 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg3 main_v2 (broadcastInDim S1x16 ![1] bcast_S16_S1x16_1 : (⟨S16, .f32⟩ : BufTy).Contents (Elt F) → (⟨S1x16, .f32⟩ : BufTy).Contents (Elt F)),
    unary main_v2 main_v3 (broadcastInDim S10000x16 ![0, 1] bcast_S1x16_S10000x16_0_1 : (⟨S1x16, .f32⟩ : BufTy).Contents (Elt F) → (⟨S10000x16, .f32⟩ : BufTy).Contents (Elt F)),
    binary main_v1 main_v3 main_v4 (addf : (⟨S10000x16, .f32⟩ : BufTy).Contents (Elt F) → (⟨S10000x16, .f32⟩ : BufTy).Contents (Elt F) → (⟨S10000x16, .f32⟩ : BufTy).Contents (Elt F)),
    TRef.nullary (TRef.of (T := ⟨S_, .f32⟩) main_call0_cst) (constant S_ .f32 0xFF800000#32),
    TRef.binary (TRef.of (T := ⟨S10000x16, .f32⟩) main_v4) (TRef.of (T := ⟨S_, .f32⟩) main_call0_cst) (TRef.of (T := ⟨S10000, .f32⟩) main_call0_v0) (fun x v => Host.reduce FloatOps.maximumf x v reducesTo_S10000x16_S10000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S10000, .f32⟩) main_call0_v1) (broadcastInDim S10000 ![] bcast_S_S10000),
    TRef.binary (TRef.of (T := ⟨S10000, .f32⟩) main_call0_v1) (TRef.of (T := ⟨S10000, .f32⟩) main_call0_v0) (TRef.of (T := ⟨S10000, .f32⟩) main_call0_v2) maximumf,
    TRef.unary (TRef.of (T := ⟨S10000, .f32⟩) main_call0_v2) (TRef.of (T := ⟨S10000x1, .f32⟩) main_call0_v3) (broadcastInDim S10000x1 ![0] bcast_S10000_S10000x1_0),
    TRef.unary (TRef.of (T := ⟨S10000x1, .f32⟩) main_call0_v3) (TRef.of (T := ⟨S10000x16, .f32⟩) main_call0_v4) (broadcastInDim S10000x16 ![0, 1] bcast_S10000x1_S10000x16_0_1),
    TRef.binary (TRef.of (T := ⟨S10000x16, .f32⟩) main_v4) (TRef.of (T := ⟨S10000x16, .f32⟩) main_call0_v4) (TRef.of (T := ⟨S10000x16, .f32⟩) main_call0_v5) subf,
    TRef.unary (TRef.of (T := ⟨S10000x16, .f32⟩) main_call0_v5) (TRef.of (T := ⟨S10000x16, .f32⟩) main_call0_v6) Host.exp,
    TRef.nullary (TRef.of (T := ⟨S_, .f32⟩) main_call0_cst_1) (constant S_ .f32 0x00000000#32),
    TRef.binary (TRef.of (T := ⟨S10000x16, .f32⟩) main_call0_v6) (TRef.of (T := ⟨S_, .f32⟩) main_call0_cst_1) (TRef.of (T := ⟨S10000, .f32⟩) main_call0_v7) (fun x v => Host.reduceAdd x v reducesTo_S10000x16_S10000_d1 h_S_),
    TRef.unary (TRef.of (T := ⟨S10000, .f32⟩) main_call0_v7) (TRef.of (T := ⟨S10000x1, .f32⟩) main_call0_v8) (broadcastInDim S10000x1 ![0] bcast_S10000_S10000x1_0),
    TRef.unary (TRef.of (T := ⟨S10000x1, .f32⟩) main_call0_v8) (TRef.of (T := ⟨S10000x1, .f32⟩) main_call0_v9) Host.log,
    TRef.unary (TRef.of (T := ⟨S10000x1, .f32⟩) main_call0_v9) (TRef.of (T := ⟨S10000x16, .f32⟩) main_call0_v10) (broadcastInDim S10000x16 ![0, 1] bcast_S10000x1_S10000x16_0_1),
    TRef.binary (TRef.of (T := ⟨S10000x16, .f32⟩) main_call0_v5) (TRef.of (T := ⟨S10000x16, .f32⟩) main_call0_v10) (TRef.of (T := ⟨S10000x16, .f32⟩) main_v5) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## What the operations leave in the result buffer -/

-- the result's term holds the logits four times over; comparing it with the staged form walks deeper than the default bound
set_option maxRecDepth 200000 in
set_option maxHeartbeats 2000000 in
/-- After the twenty operations, from any contents `V`, the result buffer holds the log-softmax of the logits of the
    argument buffers' contents. -/
theorem after_result (V : Valuation τ sig (Elt F)) :
    after ops V (Proc.devRef .tc main_v5)
      = logSoftmax (logits (V (Proc.devRef .tc main_arg0)) (V (Proc.devRef .tc main_arg1)) (V (Proc.devRef .tc main_arg2)) (V (Proc.devRef .tc main_arg3))) := by
  after_results <;> rfl

theorem after_arg0 (V : Valuation τ sig (Elt F)) : after ops V (Proc.devRef .tc main_arg0) = V (Proc.devRef .tc main_arg0) := by
  after_results <;> rfl
theorem after_arg1 (V : Valuation τ sig (Elt F)) : after ops V (Proc.devRef .tc main_arg1) = V (Proc.devRef .tc main_arg1) := by
  after_results <;> rfl
theorem after_arg2 (V : Valuation τ sig (Elt F)) : after ops V (Proc.devRef .tc main_arg2) = V (Proc.devRef .tc main_arg2) := by
  after_results <;> rfl
theorem after_arg3 (V : Valuation τ sig (Elt F)) : after ops V (Proc.devRef .tc main_arg3) = V (Proc.devRef .tc main_arg3) := by
  after_results <;> rfl

/-! ## The run -/

/-- On every device, from any memory with zero counters: every weakly fair execution of @main terminates with the result
    at the log-softmax of the logits of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = logSoftmax (logits (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v5).trans (after_result _),
      (h c main_arg0).trans (after_arg0 _),
      (h c main_arg1).trans (after_arg1 _),
      (h c main_arg2).trans (after_arg2 _),
      (h c main_arg3).trans (after_arg3 _)⟩)
    (run_seq scopedRefs_eq scopedSems_eq defs main (fun _ => ops) main_eq (fun _ => ops_sub) m ρ)

end Cert.ReferenceIdeal.RefRun

end
-- ==== Proof.GcnSpec.lean ====
/-
  One graph-convolution layer followed by a row-wise log-softmax, as ONE function of the four argument arrays over the
  extended reals: for a node `i` and a class `c`

      logit i c   = (∑ j, adj(i, j) · (∑ k, x(j, k) · W(k, c))) + b(c)
      out (i, c)  = (logit i c − M i) − log (∑ c', exp (logit i c' − M i)),      M i = max over c' of logit i c' (from −∞).

  Both programs compute exactly this at the ideal values; they differ only in the order of the two factors of each product
  (multiplication of extended reals commutes), in which reduction primitive takes the maximum and the sums, and in a
  redundant `max (−∞) ·` the reference applies to the row maximum. No law used here needs finiteness.
-/
import Idealize.ShloMosaic.PureOps.Ideal
import Idealize.ShloMosaic.Lib.ValueIdx

noncomputable section

namespace Cert.Gcn

open Idealize.ShloMosaic Idealize.ShloMosaic.ValueIdx

/-- The pattern of −∞ both programs start their row maximum from, read at the ideal values. -/
def negInf : EReal := Ideal.ofBits .f32 0xFF800000#32

section
variable (x : (⟨2, ![10000, 128]⟩ : Shape).Idx → EReal) (adj : (⟨2, ![10000, 10000]⟩ : Shape).Idx → EReal)
  (W : (⟨2, ![128, 16]⟩ : Shape).Idx → EReal) (b : (⟨1, ![16]⟩ : Shape).Idx → EReal)

/-- Node `j`'s features projected on class `c`: row `j` of `x · W`. -/
def support (j : Fin 10000) (c : Fin 16) : EReal := ∑ k : Fin 128, x (ix2 j k) * W (ix2 k c)

/-- The layer's output before the softmax: row `i` of `adj · (x · W)`, plus the bias. -/
def logit (i : Fin 10000) (c : Fin 16) : EReal := (∑ j : Fin 10000, adj (ix2 i j) * support x W j c) + b (ix1 c)

/-- The largest logit of node `i`, the maximum taken from −∞. -/
def rowMax (i : Fin 10000) : EReal := (Finset.univ : Finset (Fin 16)).fold max negInf (fun c => logit x adj W b i c)

/-- The logit with the row's maximum taken off. -/
def shifted (i : Fin 10000) (c : Fin 16) : EReal := logit x adj W b i c - rowMax x adj W b i

/-- The logarithm of the row's sum of exponentials of the shifted logits. -/
def logSumExp (i : Fin 10000) : EReal := Ideal.log (∑ c : Fin 16, Ideal.exp (shifted x adj W b i c))

/-- The layer's result: the log-softmax of each node's logits. -/
def out : (⟨2, ![10000, 16]⟩ : Shape).Idx → EReal := fun i => shifted x adj W b (i 0) (i 1) - logSumExp x adj W b (i 0)

theorem out_ix2 (i : Fin 10000) (c : Fin 16) :
    out x adj W b (ix2 i c) = shifted x adj W b i c - logSumExp x adj W b i := rfl

end

/-- Taking the maximum with the starting value again changes nothing: a maximum folded from `a` is at least `a`. -/
theorem max_fold_self {ι : Type*} (s : Finset ι) (a : EReal) (f : ι → EReal) :
    max a (s.fold max a f) = s.fold max a f :=
  max_eq_right ((Finset.le_fold_max a).mpr (Or.inl le_rfl))

end Cert.Gcn

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.GcnRefValue.lean ====
/-
  The reference's four stages read at an index at the ideal values, and their composition: the reference's result IS the
  layer's function `Cert.Gcn.out` of the four argument arrays.

  logits (i, c)  = (∑ j, adj(i, j) · (∑ k, x(j, k) · W(k, c))) + b(c)      — two host products and two broadcasts;
  rowMax i       = the fold of max from −∞ over the sixteen classes        — the host's reduce folds exactly that, and the
                   extra maximum against −∞ changes nothing (a fold from −∞ is at least −∞);
  shifted (i, c) = logits (i, c) − rowMax i;
  result (i, c)  = shifted (i, c) − log (0 + ∑ c', exp (shifted (i, c')))   — the host's sum starts from the zero pattern.
-/
import proofs.«175306_g8718783611330_retrytranche1_1952_17_alg».proof.Proof.GcnRefRun
import proofs.«175306_g8718783611330_retrytranche1_1952_17_alg».proof.Proof.GcnSpec
import proofs.«175306_g8718783611330_retrytranche1_1952_17_alg».proof.Proof.LibContract1
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx

/-! ## Where the two host products read their operands -/

theorem feat_lhs_kept (i : S10000x16.Idx) (q : dot_S10000x128_S128x16_S10000x16_1_0_0_1_n_n.contr.Idx) : (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide),
    dif_pos (show (0 : Fin S10000x128.rank) ∈ dot_S10000x128_S128x16_S10000x16_1_0_0_1_n_n.lhsNonContracting by decide)]
  rfl
theorem feat_lhs_contr (i : S10000x16.Idx) (q : dot_S10000x128_S128x16_S10000x16_1_0_0_1_n_n.contr.Idx) : (dot_S10000x128_S128x16_S10000x16_1_0_0_1_n_n.lhsIdx i q 1).val = (q ⟨0, by decide⟩).val :=
  dot_S10000x128_S128x16_S10000x16_1_0_0_1_n_n.lhsIdx_val_of_single rfl i q
theorem feat_rhs_contr (i : S10000x16.Idx) (q : dot_S10000x128_S128x16_S10000x16_1_0_0_1_n_n.contr.Idx) : (dot_S10000x128_S128x16_S10000x16_1_0_0_1_n_n.rhsIdx i q 0).val = (q ⟨0, by decide⟩).val :=
  dot_S10000x128_S128x16_S10000x16_1_0_0_1_n_n.rhsIdx_val_of_single rfl i q
theorem feat_rhs_kept (i : S10000x16.Idx) (q : dot_S10000x128_S128x16_S10000x16_1_0_0_1_n_n.contr.Idx) : (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide),
    dif_pos (show (1 : Fin S128x16.rank) ∈ dot_S10000x128_S128x16_S10000x16_1_0_0_1_n_n.rhsNonContracting by decide)]
  rfl

theorem agg_lhs_kept (i : S10000x16.Idx) (q : dot_S10000x10000_S10000x16_S10000x16_1_0_0_1_n_n.contr.Idx) : (dot_S10000x10000_S10000x16_S10000x16_1_0_0_1_n_n.lhsIdx i q 0).val = (i 0).val := by
  unfold DotDims.lhsIdx
  rw [dif_neg (show ¬(0 : Fin S10000x10000.rank) ∈ dot_S10000x10000_S10000x16_S10000x16_1_0_0_1_n_n.lhsBatch by decide),
    dif_pos (show (0 : Fin S10000x10000.rank) ∈ dot_S10000x10000_S10000x16_S10000x16_1_0_0_1_n_n.lhsNonContracting by decide)]
  rfl
theorem agg_lhs_contr (i : S10000x16.Idx) (q : dot_S10000x10000_S10000x16_S10000x16_1_0_0_1_n_n.contr.Idx) : (dot_S10000x10000_S10000x16_S10000x16_1_0_0_1_n_n.lhsIdx i q 1).val = (q ⟨0, by decide⟩).val :=
  dot_S10000x10000_S10000x16_S10000x16_1_0_0_1_n_n.lhsIdx_val_of_single rfl i q
theorem agg_rhs_contr (i : S10000x16.Idx) (q : dot_S10000x10000_S10000x16_S10000x16_1_0_0_1_n_n.contr.Idx) : (dot_S10000x10000_S10000x16_S10000x16_1_0_0_1_n_n.rhsIdx i q 0).val = (q ⟨0, by decide⟩).val :=
  dot_S10000x10000_S10000x16_S10000x16_1_0_0_1_n_n.rhsIdx_val_of_single rfl i q
theorem agg_rhs_kept (i : S10000x16.Idx) (q : dot_S10000x10000_S10000x16_S10000x16_1_0_0_1_n_n.contr.Idx) : (dot_S10000x10000_S10000x16_S10000x16_1_0_0_1_n_n.rhsIdx i q 1).val = (i 1).val := by
  unfold DotDims.rhsIdx
  rw [dif_neg (show ¬(1 : Fin S10000x16.rank) ∈ dot_S10000x10000_S10000x16_S10000x16_1_0_0_1_n_n.rhsBatch by decide),
    dif_pos (show (1 : Fin S10000x16.rank) ∈ dot_S10000x10000_S10000x16_S10000x16_1_0_0_1_n_n.rhsNonContracting by decide)]
  rfl

/-- `x · W` at (j, c): the sum over the features. -/
theorem feat_apply (x0 : FVec Ideal S10000x128 .f32) (x2 : FVec Ideal S128x16 .f32) (j : Fin 10000) (c : Fin 16) :
    Host.dotGeneral dot_S10000x128_S128x16_S10000x16_1_0_0_1_n_n none x0 x2 (ix2 j c) = ∑ k : Fin 128, x0 (ix2 j k) * x2 (ix2 k c) := by
  refine Cert.LibContract1.dotGeneral_single dot_S10000x128_S128x16_S10000x16_1_0_0_1_n_n 128 rfl rfl x0 x2 (ix2 j c)
    (fun k => ix2 j k) (fun k => ix2 k c) (fun k => ?_) (fun k => ?_)
  · have hk := contrEquiv1_symm_val dot_S10000x128_S128x16_S10000x16_1_0_0_1_n_n 128 rfl rfl k
    refine funext fun ax => Fin.ext ?_
    match ax with
    | ⟨0, _⟩ => exact feat_lhs_kept _ _
    | ⟨1, _⟩ => exact (feat_lhs_contr _ _).trans hk
  · have hk := contrEquiv1_symm_val dot_S10000x128_S128x16_S10000x16_1_0_0_1_n_n 128 rfl rfl k
    refine funext fun ax => Fin.ext ?_
    match ax with
    | ⟨0, _⟩ => exact (feat_rhs_contr _ _).trans hk
    | ⟨1, _⟩ => exact feat_rhs_kept _ _

/-- `adj · y` at (i, c): the sum over the nodes. -/
theorem agg_apply (x1 : FVec Ideal S10000x10000 .f32) (y : FVec Ideal S10000x16 .f32) (i : Fin 10000) (c : Fin 16) :
    Host.dotGeneral dot_S10000x10000_S10000x16_S10000x16_1_0_0_1_n_n none x1 y (ix2 i c) = ∑ j : Fin 10000, x1 (ix2 i j) * y (ix2 j c) := by
  refine Cert.LibContract1.dotGeneral_single dot_S10000x10000_S10000x16_S10000x16_1_0_0_1_n_n 10000 rfl rfl x1 y (ix2 i c)
    (fun j => ix2 i j) (fun j => ix2 j c) (fun k => ?_) (fun k => ?_)
  · have hk := contrEquiv1_symm_val dot_S10000x10000_S10000x16_S10000x16_1_0_0_1_n_n 10000 rfl rfl k
    refine funext fun ax => Fin.ext ?_
    match ax with
    | ⟨0, _⟩ => exact agg_lhs_kept _ _
    | ⟨1, _⟩ => exact (agg_lhs_contr _ _).trans hk
  · have hk := contrEquiv1_symm_val dot_S10000x10000_S10000x16_S10000x16_1_0_0_1_n_n 10000 rfl rfl k
    refine funext fun ax => Fin.ext ?_
    match ax with
    | ⟨0, _⟩ => exact (agg_rhs_contr _ _).trans hk
    | ⟨1, _⟩ => exact agg_rhs_kept _ _

/-! ## The broadcasts -/

/-- The bias, made a one-row matrix and broadcast down the rows, reads at (i, c) the bias at c. -/
theorem biasBcast_apply (x3 : FVec Ideal S16 .f32) (i : Fin 10000) (c : Fin 16) :
    broadcastInDim S10000x16 ![0, 1] bcast_S1x16_S10000x16_0_1 (broadcastInDim S1x16 ![1] bcast_S16_S1x16_1 x3) (ix2 i c) = x3 (ix1 c) := by
  refine (broadcastInDim_apply _ bcast_S1x16_S10000x16_0_1 _ (ix2 i c) (ix2 (0 : Fin 1) c) fun ax => ?_).trans ?_
  · match ax with
    | ⟨0, _⟩ => rfl
    | ⟨1, _⟩ => rfl
  · refine broadcastInDim_apply _ bcast_S16_S1x16_1 x3 (ix2 (0 : Fin 1) c) (ix1 c) fun ax => ?_
    match ax with
    | ⟨0, _⟩ => rfl

/-- A vector over the nodes, made a one-column matrix and broadcast along the classes, reads at (i, c) the vector at i. -/
theorem colBcast_apply (v : FVec Ideal S10000 .f32) (i : Fin 10000) (c : Fin 16) :
    broadcastInDim S10000x16 ![0, 1] bcast_S10000x1_S10000x16_0_1 (broadcastInDim S10000x1 ![0] bcast_S10000_S10000x1_0 v) (ix2 i c) = v (ix1 i) := by
  refine (broadcastInDim_apply _ bcast_S10000x1_S10000x16_0_1 _ (ix2 i c) (ix2 i (0 : Fin 1)) fun ax => ?_).trans ?_
  · match ax with
    | ⟨0, _⟩ => rfl
    | ⟨1, _⟩ => rfl
  · refine broadcastInDim_apply _ bcast_S10000_S10000x1_0 v (ix2 i (0 : Fin 1)) (ix1 i) fun ax => ?_
    match ax with
    | ⟨0, _⟩ => rfl

/-- A one-column matrix broadcast along the classes reads at (i, c) the column at (i, 0). -/
theorem colBcast1_apply (v : FVec Ideal S10000x1 .f32) (i : Fin 10000) (c : Fin 16) :
    broadcastInDim S10000x16 ![0, 1] bcast_S10000x1_S10000x16_0_1 v (ix2 i c) = v (ix2 i (0 : Fin 1)) := by
  refine broadcastInDim_apply _ bcast_S10000x1_S10000x16_0_1 v (ix2 i c) (ix2 i (0 : Fin 1)) fun ax => ?_
  match ax with
  | ⟨0, _⟩ => rfl
  | ⟨1, _⟩ => rfl

/-- A vector over the nodes made a one-column matrix reads at (i, 0) the vector at i. -/
theorem toCol_apply (v : FVec Ideal S10000 .f32) (i : Fin 10000) :
    broadcastInDim S10000x1 ![0] bcast_S10000_S10000x1_0 v (ix2 i (0 : Fin 1)) = v (ix1 i) := by
  refine broadcastInDim_apply _ bcast_S10000_S10000x1_0 v (ix2 i (0 : Fin 1)) (ix1 i) fun ax => ?_
  match ax with
  | ⟨0, _⟩ => rfl

/-! ## The stages at an index -/

theorem logits_apply (x0 : FVec Ideal S10000x128 .f32) (x1 : FVec Ideal S10000x10000 .f32) (x2 : FVec Ideal S128x16 .f32)
    (x3 : FVec Ideal S16 .f32) (i : Fin 10000) (c : Fin 16) :
    logits (F := Ideal) x0 x1 x2 x3 (ix2 i c) = Cert.Gcn.logit x0 x1 x2 x3 i c := by
  unfold logits Cert.Gcn.logit Cert.Gcn.support
  rw [addf_apply, agg_apply, biasBcast_apply]
  refine congrArg (· + x3 (ix1 c)) (Finset.sum_congr rfl fun j _ => ?_)
  rw [feat_apply]

/-- The reduce witness the inserted index is named from. -/
theorem reduces_classes : S10000x16.Reduces [1] S10000 := by decide

theorem rowMax_apply (z : FVec Ideal S10000x16 .f32) (i : Fin 10000) :
    rowMax (F := Ideal) z (ix1 i) = (Finset.univ : Finset (Fin 16)).fold max Cert.Gcn.negInf (fun c => z (ix2 i c)) := by
  unfold rowMax
  rw [maximumf_apply, broadcastInDim_scalar_apply,
    Host.reduce_eq_fold_single FloatOps.maximumf z _ reducesTo_S10000x16_S10000_d1 reduces_classes h_S_ (ix1 i)]
  have hf : (z ∘ reduces_classes.lift (ix1 i)) = fun c : Fin 16 => z (ix2 i c) :=
    funext fun c => congrArg z (funext fun ax => Fin.ext (by match ax with | ⟨0, _⟩ => rfl | ⟨1, _⟩ => rfl))
  rw [hf]
  exact Cert.Gcn.max_fold_self Finset.univ Cert.Gcn.negInf fun c : Fin 16 => z (ix2 i c)

theorem shifted_apply (z : FVec Ideal S10000x16 .f32) (i : Fin 10000) (c : Fin 16) :
    shifted (F := Ideal) z (ix2 i c) = z (ix2 i c) - (Finset.univ : Finset (Fin 16)).fold max Cert.Gcn.negInf (fun c => z (ix2 i c)) := by
  unfold shifted
  rw [subf_apply, colBcast_apply, rowMax_apply]

theorem logSoftmax_apply (z : FVec Ideal S10000x16 .f32) (i : Fin 10000) (c : Fin 16) :
    logSoftmax (F := Ideal) z (ix2 i c)
      = shifted (F := Ideal) z (ix2 i c) - Ideal.log (∑ k : Fin 16, Ideal.exp (shifted (F := Ideal) z (ix2 i k))) := by
  unfold logSoftmax
  rw [subf_apply, colBcast1_apply]
  refine congrArg (fun e => shifted (F := Ideal) z (ix2 i c) - e) ?_
  show Ideal.log (broadcastInDim (s := S10000) S10000x1 ![0] bcast_S10000_S10000x1_0
    (Host.reduceAdd (Host.exp (shifted (F := Ideal) z)) (constant (F := Ideal) S_ .f32 0x00000000#32) reducesTo_S10000x16_S10000_d1 h_S_)
    (ix2 i (0 : Fin 1))) = _
  rw [toCol_apply, hostReduceAdd_apply, Ideal.hostReduceAdd_single reducesTo_S10000x16_S10000_d1 reduces_classes]
  refine congrArg Ideal.log ?_
  rw [show (constant (F := Ideal) S_ .f32 0x00000000#32) (Shape.Idx.first h_S_) = 0 from Ideal.ofBits_zero_f32, zero_add]
  refine Finset.sum_congr rfl fun k _ => ?_
  show Ideal.exp (shifted (F := Ideal) z (reduces_classes.lift (ix1 i) k)) = _
  exact congrArg (fun j => Ideal.exp (shifted (F := Ideal) z j))
    (funext fun ax => Fin.ext (by match ax with | ⟨0, _⟩ => rfl | ⟨1, _⟩ => rfl))

/-! ## The reference is the layer's function -/

/-- The reference's result, as a function of the argument arrays, is `Cert.Gcn.out`. -/
theorem result_eq (x0 : FVec Ideal S10000x128 .f32) (x1 : FVec Ideal S10000x10000 .f32) (x2 : FVec Ideal S128x16 .f32)
    (x3 : FVec Ideal S16 .f32) :
    logSoftmax (F := Ideal) (logits (F := Ideal) x0 x1 x2 x3) = Cert.Gcn.out x0 x1 x2 x3 := by
  funext idx
  obtain ⟨i, c, rfl⟩ : ∃ (i : Fin 10000) (c : Fin 16), idx = ix2 i c := ⟨idx 0, idx 1, eq_ix2 idx⟩
  rw [logSoftmax_apply, Cert.Gcn.out_ix2]
  unfold Cert.Gcn.logSumExp Cert.Gcn.shifted Cert.Gcn.rowMax
  simp only [shifted_apply, logits_apply]

end Cert.ReferenceIdeal.RefValue

end
-- ==== Proof.GcnPieces.lean ====
/-
  What the body's stores leave, case by case, as the body's own arithmetic of the point's blocks (at any float instance).

  At the grid's first point the body stores the transposed feature product of the W block and the x block into the scratch,
  reads the scratch back, and stores the output block computed from that read, the adjacency block and the bias column.
  At every other point it stores nothing into the scratch and computes the output block from what the scratch already
  holds. Each buffer is written by ONE store through its whole rectangle, so what it ends holding is that store's value,
  and a whole-buffer load of a staged block reads the block.
-/
import proofs.«175306_g8718783611330_retrytranche1_1952_17_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.GcnPieces

open Cert.KernelIdeal Cert.KernelIdeal.Gen

variable {F : FTy → Type} [FloatOps F]

/-- The zero offsets of a whole-buffer access, as the constant function. -/
theorem zeroOff : (![0, 0] : Fin 2 → Nat) = fun _ => 0 := funext fun a => by fin_cases a <;> rfl

/-- First point: the scratch ends at the transposed feature product of the W block and the x block. -/
theorem scratchA_eq (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S16x1 .f32) (harg3 : arg3.IsWhole) (arg4 : Memref sig .tc .vmem S400x10000 .f32) (harg4 : arg4.IsWhole) (arg5 : Memref sig .tc .vmem S400x16 .f32) (harg5 : arg5.IsWhole) (arg6 : Memref sig .tc .vmem S16x10000 .f32) (harg6 : arg6.IsWhole) (hc0 : cond0_0 i) (x0 : Vec F S10000x128 .f32) (x1 : Vec F S128x16 .f32) (x2 : Vec F S16x1 .f32) (x3 : Vec F S400x10000 .f32) :
    sout0_A_0 c i arg1 harg1 arg2 harg2 arg3 harg3 arg4 harg4 arg5 harg5 arg6 harg6 hc0 x0 x1 x2 x3 = k0_pay1 x1 x0 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  try sl_unfold_words
  rw [View.canon_unit_zero zeroOff]
  simp only [View.readAt_eq_ld, harg1.read_unread, harg2.read_unread,
    View.ld_unit_zero (S := S128x16) zeroOff, View.ld_unit_zero (S := S10000x128) zeroOff]

/-- First point: the output block is computed from the scratch as just stored. -/
theorem outA_eq (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S16x1 .f32) (harg3 : arg3.IsWhole) (arg4 : Memref sig .tc .vmem S400x10000 .f32) (harg4 : arg4.IsWhole) (arg5 : Memref sig .tc .vmem S400x16 .f32) (harg5 : arg5.IsWhole) (arg6 : Memref sig .tc .vmem S16x10000 .f32) (harg6 : arg6.IsWhole) (hc0 : cond0_0 i) (x0 : Vec F S10000x128 .f32) (x1 : Vec F S128x16 .f32) (x2 : Vec F S16x1 .f32) (x3 : Vec F S400x10000 .f32) :
    out0_A_4 c i arg1 harg1 arg2 harg2 arg3 harg3 arg4 harg4 arg5 harg5 arg6 harg6 hc0 x0 x1 x2 x3 = k0_pay2 (k0_pay1 x1 x0) x3 x2 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  try sl_unfold_words
  rw [View.canon_unit_zero zeroOff, View.readCov_unit_zero (S := S16x10000) _ zeroOff]
  simp only [View.readAt_eq_ld, harg1.read_unread, harg2.read_unread, harg3.read_unread, harg4.read_unread,
    View.ld_unit_zero (S := S128x16) zeroOff, View.ld_unit_zero (S := S10000x128) zeroOff,
    View.ld_unit_zero (S := S400x10000) zeroOff, View.ld_unit_zero (S := S16x1) zeroOff]

/-- Any later point: the output block is computed from what the scratch held on entry. -/
theorem outB_eq (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S16x1 .f32) (harg3 : arg3.IsWhole) (arg4 : Memref sig .tc .vmem S400x10000 .f32) (harg4 : arg4.IsWhole) (arg5 : Memref sig .tc .vmem S400x16 .f32) (harg5 : arg5.IsWhole) (arg6 : Memref sig .tc .vmem S16x10000 .f32) (harg6 : arg6.IsWhole) (hc0 : ¬cond0_0 i) (x0 : Vec F S10000x128 .f32) (x1 : Vec F S128x16 .f32) (x2 : Vec F S16x1 .f32) (x3 : Vec F S400x10000 .f32) (xs0 : Vec F S16x10000 .f32) :
    out0_B_4 c i arg1 harg1 arg2 harg2 arg3 harg3 arg4 harg4 arg5 harg5 arg6 harg6 hc0 x0 x1 x2 x3 xs0 = k0_pay2 xs0 x3 x2 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  try sl_unfold_words
  rw [View.canon_unit_zero zeroOff]
  simp only [View.readAt_eq_ld, harg3.read_unread, harg4.read_unread, harg6.read_unread,
    View.ld_unit_zero (S := S16x10000) zeroOff, View.ld_unit_zero (S := S400x10000) zeroOff,
    View.ld_unit_zero (S := S16x1) zeroOff]

end Cert.KernelIdeal.GcnPieces

end
-- ==== Proof.GcnPayload.lean ====
/-
  The kernel body's two stored values, read at an index at the ideal values.

  The first store (taken at the grid's first point only) leaves in the scratch the TRANSPOSED feature product: entry (c, j)
  is ∑ k, W(k, c) · x(j, k). The second (every point) takes the scratch `s`, the point's block `a` of 400 adjacency
  rows and the bias column `β`, forms the class-by-row tile z(c, r) = (∑ j, s(c, j) · a(r, j)) + β(c, 0), subtracts each
  column's maximum (folded from −∞), subtracts the logarithm of the column's sum of exponentials, and stores the tile
  transposed: entry (r, c) of the stored block is (z(c, r) − M r) − log ∑ k, exp (z(k, r) − M r).
-/
import proofs.«175306_g8718783611330_retrytranche1_1952_17_alg».proof.Proof.Gen.KernelIdeal.Skeleton
import proofs.«175306_g8718783611330_retrytranche1_1952_17_alg».proof.Proof.GcnSpec
import proofs.«175306_g8718783611330_retrytranche1_1952_17_alg».proof.Proof.LibContract1
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.GcnBody

open Cert.KernelIdeal Cert.KernelIdeal.Gen Idealize.ShloMosaic Idealize.ShloMosaic.ValueIdx

/-! ## Where the two products read their operands -/

/-- First product, left operand W: its class axis follows the result's first axis, -/
theorem feat_lhs_kept (i : S16x10000.Idx) (q : dot_S128x16_S10000x128_S16x10000_0_1_1_0_n_n.contr.Idx) : (dot_S128x16_S10000x128_S16x10000_0_1_1_0_n_n.lhsIdx i q 1).val = (i 0).val := by
  unfold DotDims.lhsIdx
  rw [dif_neg (show ¬(1 : Fin S128x16.rank) ∈ dot_S128x16_S10000x128_S16x10000_0_1_1_0_n_n.lhsBatch by decide),
    dif_pos (show (1 : Fin S128x16.rank) ∈ dot_S128x16_S10000x128_S16x10000_0_1_1_0_n_n.lhsNonContracting by decide)]
  rfl
/-- its feature axis is the contracted one; -/
theorem feat_lhs_contr (i : S16x10000.Idx) (q : dot_S128x16_S10000x128_S16x10000_0_1_1_0_n_n.contr.Idx) : (dot_S128x16_S10000x128_S16x10000_0_1_1_0_n_n.lhsIdx i q 0).val = (q ⟨0, by decide⟩).val :=
  dot_S128x16_S10000x128_S16x10000_0_1_1_0_n_n.lhsIdx_val_of_single rfl i q
/-- right operand x: its node axis follows the result's second axis, -/
theorem feat_rhs_kept (i : S16x10000.Idx) (q : dot_S128x16_S10000x128_S16x10000_0_1_1_0_n_n.contr.Idx) : (dot_S128x16_S10000x128_S16x10000_0_1_1_0_n_n.rhsIdx i q 0).val = (i 1).val := by
  unfold DotDims.rhsIdx
  rw [dif_neg (show ¬(0 : Fin S10000x128.rank) ∈ dot_S128x16_S10000x128_S16x10000_0_1_1_0_n_n.rhsBatch by decide),
    dif_pos (show (0 : Fin S10000x128.rank) ∈ dot_S128x16_S10000x128_S16x10000_0_1_1_0_n_n.rhsNonContracting by decide)]
  rfl
/-- its feature axis is the contracted one. -/
theorem feat_rhs_contr (i : S16x10000.Idx) (q : dot_S128x16_S10000x128_S16x10000_0_1_1_0_n_n.contr.Idx) : (dot_S128x16_S10000x128_S16x10000_0_1_1_0_n_n.rhsIdx i q 1).val = (q ⟨0, by decide⟩).val :=
  dot_S128x16_S10000x128_S16x10000_0_1_1_0_n_n.rhsIdx_val_of_single rfl i q

/-- Second product, left operand (the scratch): its class axis follows the result's first axis, -/
theorem tile_lhs_kept (i : S16x400.Idx) (q : dot_S16x10000_S400x10000_S16x400_1_1_0_0_n_n.contr.Idx) : (dot_S16x10000_S400x10000_S16x400_1_1_0_0_n_n.lhsIdx i q 0).val = (i 0).val := by
  unfold DotDims.lhsIdx
  rw [dif_neg (show ¬(0 : Fin S16x10000.rank) ∈ dot_S16x10000_S400x10000_S16x400_1_1_0_0_n_n.lhsBatch by decide),
    dif_pos (show (0 : Fin S16x10000.rank) ∈ dot_S16x10000_S400x10000_S16x400_1_1_0_0_n_n.lhsNonContracting by decide)]
  rfl
/-- its node axis is the contracted one; -/
theorem tile_lhs_contr (i : S16x400.Idx) (q : dot_S16x10000_S400x10000_S16x400_1_1_0_0_n_n.contr.Idx) : (dot_S16x10000_S400x10000_S16x400_1_1_0_0_n_n.lhsIdx i q 1).val = (q ⟨0, by decide⟩).val :=
  dot_S16x10000_S400x10000_S16x400_1_1_0_0_n_n.lhsIdx_val_of_single rfl i q
/-- right operand (the adjacency block): its row axis follows the result's second axis, -/
theorem tile_rhs_kept (i : S16x400.Idx) (q : dot_S16x10000_S400x10000_S16x400_1_1_0_0_n_n.contr.Idx) : (dot_S16x10000_S400x10000_S16x400_1_1_0_0_n_n.rhsIdx i q 0).val = (i 1).val := by
  unfold DotDims.rhsIdx
  rw [dif_neg (show ¬(0 : Fin S400x10000.rank) ∈ dot_S16x10000_S400x10000_S16x400_1_1_0_0_n_n.rhsBatch by decide),
    dif_pos (show (0 : Fin S400x10000.rank) ∈ dot_S16x10000_S400x10000_S16x400_1_1_0_0_n_n.rhsNonContracting by decide)]
  rfl
/-- its node axis is the contracted one. -/
theorem tile_rhs_contr (i : S16x400.Idx) (q : dot_S16x10000_S400x10000_S16x400_1_1_0_0_n_n.contr.Idx) : (dot_S16x10000_S400x10000_S16x400_1_1_0_0_n_n.rhsIdx i q 1).val = (q ⟨0, by decide⟩).val :=
  dot_S16x10000_S400x10000_S16x400_1_1_0_0_n_n.rhsIdx_val_of_single rfl i q

/-- The first product contracts W's rows with x's columns: entry (c, j) is ∑ k, W(k, c) · x(j, k). -/
theorem featT_apply (w : FVec Ideal S128x16 .f32) (x : FVec Ideal S10000x128 .f32) (c : Fin 16) (j : Fin 10000) :
    matmul dot_S128x16_S10000x128_S16x10000_0_1_1_0_n_n none w x (constant (F := Ideal) S16x10000 .f32 0x00000000#32) (ix2 c j)
      = ∑ k : Fin 128, w (ix2 k c) * x (ix2 j k) := by
  refine Cert.LibContract1.matmul_zero_single dot_S128x16_S10000x128_S16x10000_0_1_1_0_n_n 128 rfl rfl w x (ix2 c j)
    (fun k => ix2 k c) (fun k => ix2 j k) (fun k => ?_) (fun k => ?_)
  · have hk := contrEquiv1_symm_val dot_S128x16_S10000x128_S16x10000_0_1_1_0_n_n 128 rfl rfl k
    refine funext fun a => Fin.ext ?_
    match a with
    | ⟨0, _⟩ => exact (feat_lhs_contr _ _).trans hk
    | ⟨1, _⟩ => exact feat_lhs_kept _ _
  · have hk := contrEquiv1_symm_val dot_S128x16_S10000x128_S16x10000_0_1_1_0_n_n 128 rfl rfl k
    refine funext fun a => Fin.ext ?_
    match a with
    | ⟨0, _⟩ => exact feat_rhs_kept _ _
    | ⟨1, _⟩ => exact (feat_rhs_contr _ _).trans hk

/-- The second product contracts both operands' node axis: entry (c, r) is ∑ j, s(c, j) · a(r, j). -/
theorem tile_apply (s : FVec Ideal S16x10000 .f32) (a : FVec Ideal S400x10000 .f32) (c : Fin 16) (r : Fin 400) :
    matmul dot_S16x10000_S400x10000_S16x400_1_1_0_0_n_n none s a (constant (F := Ideal) S16x400 .f32 0x00000000#32) (ix2 c r)
      = ∑ j : Fin 10000, s (ix2 c j) * a (ix2 r j) := by
  refine Cert.LibContract1.matmul_zero_single dot_S16x10000_S400x10000_S16x400_1_1_0_0_n_n 10000 rfl rfl s a (ix2 c r)
    (fun j => ix2 c j) (fun j => ix2 r j) (fun k => ?_) (fun k => ?_)
  · have hk := contrEquiv1_symm_val dot_S16x10000_S400x10000_S16x400_1_1_0_0_n_n 10000 rfl rfl k
    refine funext fun ax => Fin.ext ?_
    match ax with
    | ⟨0, _⟩ => exact tile_lhs_kept _ _
    | ⟨1, _⟩ => exact (tile_lhs_contr _ _).trans hk
  · have hk := contrEquiv1_symm_val dot_S16x10000_S400x10000_S16x400_1_1_0_0_n_n 10000 rfl rfl k
    refine funext fun ax => Fin.ext ?_
    match ax with
    | ⟨0, _⟩ => exact tile_rhs_kept _ _
    | ⟨1, _⟩ => exact (tile_rhs_contr _ _).trans hk

/-! ## The first store: the transposed feature product -/

theorem pay1_apply (w : Vec Ideal S128x16 .f32) (x : Vec Ideal S10000x128 .f32) (c : Fin 16) (j : Fin 10000) :
    k0_pay1 (F := Ideal) w x (ix2 c j) = ∑ k : Fin 128, w (ix2 k c) * x (ix2 j k) := by
  unfold k0_pay1
  rw [shapeCast_self]
  exact featT_apply w x c j

/-! ## The second store, in steps: the tile, its column maxima, the shift, the column-wise log-softmax stored transposed -/

/-- The class-by-row tile: the product plus the bias column broadcast along the rows. -/
def tile (s : FVec Ideal S16x10000 .f32) (a : FVec Ideal S400x10000 .f32) (β : FVec Ideal S16x1 .f32) : FVec Ideal S16x400 .f32 :=
  addf (matmul dot_S16x10000_S400x10000_S16x400_1_1_0_0_n_n none s a (constant (F := Ideal) S16x400 .f32 0x00000000#32))
    (broadcastTo S16x400 (shapeCast S16x1 β shapeCasts_S16x1_S16x1) broadcasts_S16x1_S16x400)

/-- A column of sixteen broadcast along 400 rows reads, at (c, r), the column at (c, 0). -/
theorem broadcastCol_apply (v : FVec Ideal S16x1 .f32) (c : Fin 16) (r : Fin 400) :
    broadcastTo S16x400 v broadcasts_S16x1_S16x400 (ix2 c r) = v (ix2 c (0 : Fin 1)) := by
  refine broadcastTo_apply v broadcasts_S16x1_S16x400 (ix2 c r) (ix2 c (0 : Fin 1)) fun ax => ?_
  match ax with
  | ⟨0, _⟩ => rfl
  | ⟨1, _⟩ => rfl

theorem tile_eq (s : FVec Ideal S16x10000 .f32) (a : FVec Ideal S400x10000 .f32) (β : FVec Ideal S16x1 .f32) (c : Fin 16) (r : Fin 400) :
    tile s a β (ix2 c r) = (∑ j : Fin 10000, s (ix2 c j) * a (ix2 r j)) + β (ix2 c (0 : Fin 1)) := by
  unfold tile
  rw [addf_apply, tile_apply, broadcastCol_apply, shapeCast_self]

/-- Each column's maximum, as the body takes it: a reduction over the class axis from the pattern of −∞. -/
def colMaxVec (z : FVec Ideal S16x400 .f32) : FVec Ideal S400 .f32 :=
  multiReduction .maximumf [0] S400 z 0xFF800000#32 reduces_S16x400_S400 (.inl rfl) rfl

/-- The tile with each column's maximum taken off (the maxima cast to a row and broadcast down the classes). -/
def shiftT (z : FVec Ideal S16x400 .f32) : FVec Ideal S16x400 .f32 :=
  subf z (broadcastTo S16x400 (shapeCast S1x400 (colMaxVec z) shapeCasts_S400_S1x400) broadcasts_S1x400_S16x400)

/-- Each column's sum, as the body takes it: a reduction over the class axis from zero. -/
def colSumVec (y : FVec Ideal S16x400 .f32) : FVec Ideal S400 .f32 :=
  multiReduction .add [0] S400 y 0x00000000#32 reduces_S16x400_S400 (.inl rfl) rfl

/-- The column-wise log-softmax of a class-by-row tile, stored transposed: the body's operations after the bias. -/
def softT (z : FVec Ideal S16x400 .f32) : FVec Ideal S400x16 .f32 :=
  transpose S400x16 [1, 0]
    (subf (shiftT z)
      (broadcastTo S16x400 (log (shapeCast S1x400 (colSumVec (exp (shiftT z))) shapeCasts_S400_S1x400)) broadcasts_S1x400_S16x400))
    transposes_S16x400_p1_0_S400x16

/-- The stored block is the log-softmax of the tile: the printed payload, regrouped. -/
theorem pay2_eq (s : Vec Ideal S16x10000 .f32) (a : Vec Ideal S400x10000 .f32) (β : Vec Ideal S16x1 .f32) :
    k0_pay2 (F := Ideal) s a β = softT (tile s a β) := rfl

/-- Column `r`'s maximum of a tile, folded from −∞ over the sixteen classes. -/
def colMax (z : FVec Ideal S16x400 .f32) (r : Fin 400) : EReal :=
  (Finset.univ : Finset (Fin 16)).fold max Cert.Gcn.negInf (fun k => z (ix2 k r))

theorem colMaxVec_apply (z : FVec Ideal S16x400 .f32) (r : Fin 400) : colMaxVec z (ix1 r) = colMax z r := by
  unfold colMaxVec
  refine (Ideal.multiReduction_maximumf_single z 0xFF800000#32 reduces_S16x400_S400 (.inl rfl) rfl (ix1 r)).trans ?_
  unfold colMax Cert.Gcn.negInf
  refine congrArg (fun f => (Finset.univ : Finset (Fin 16)).fold max (Ideal.ofBits .f32 0xFF800000#32) f) (funext fun k => ?_)
  exact congrArg z (funext fun ax => Fin.ext (by match ax with | ⟨0, _⟩ => rfl | ⟨1, _⟩ => rfl))

theorem colSumVec_apply (y : FVec Ideal S16x400 .f32) (r : Fin 400) : colSumVec y (ix1 r) = ∑ k : Fin 16, y (ix2 k r) := by
  unfold colSumVec
  refine (Ideal.multiReduction_add_single y 0x00000000#32 reduces_S16x400_S400 (.inl rfl) rfl (ix1 r)).trans ?_
  refine Finset.sum_congr rfl fun k _ => ?_
  exact congrArg y (funext fun ax => Fin.ext (by match ax with | ⟨0, _⟩ => rfl | ⟨1, _⟩ => rfl))

/-- A vector of 400 cast to one row and broadcast down sixteen rows reads, at (c, r), the vector at r. -/
theorem rowBcast_apply (v : FVec Ideal S400 .f32) (c : Fin 16) (r : Fin 400) :
    broadcastTo S16x400 (shapeCast S1x400 v shapeCasts_S400_S1x400) broadcasts_S1x400_S16x400 (ix2 c r) = v (ix1 r) := by
  rw [broadcastTo_1b_ab_apply, shapeCast_a_1a_apply]

theorem shiftT_apply (z : FVec Ideal S16x400 .f32) (c : Fin 16) (r : Fin 400) :
    shiftT z (ix2 c r) = z (ix2 c r) - colMax z r := by
  unfold shiftT
  rw [subf_apply, rowBcast_apply, colMaxVec_apply]

theorem softT_apply (z : FVec Ideal S16x400 .f32) (r : Fin 400) (c : Fin 16) :
    softT z (ix2 r c)
      = (z (ix2 c r) - colMax z r) - Ideal.log (∑ k : Fin 16, Ideal.exp (z (ix2 k r) - colMax z r)) := by
  unfold softT
  rw [transpose_ix2_apply, subf_apply, shiftT_apply, broadcastTo_1b_ab_apply]
  refine congrArg (fun e => (z (ix2 c r) - colMax z r) - e) ?_
  show Ideal.log (shapeCast S1x400 (colSumVec (exp (shiftT z))) shapeCasts_S400_S1x400 (ix2 (0 : Fin 1) r)) = _
  rw [shapeCast_a_1a_apply, colSumVec_apply]
  refine congrArg Ideal.log (Finset.sum_congr rfl fun k _ => ?_)
  show Ideal.exp (shiftT z (ix2 k r)) = _
  rw [shiftT_apply]

end Cert.KernelIdeal.GcnBody

end
-- ==== Proof.GcnPoint.lean ====
/-
  One grid point's stored block, against the layer's function.

  Suppose the scratch `S` holds the transposed feature product of `W` and `x`, the point's adjacency block `a` is rows
  `row r` of `adj`, and the bias column `β` is `b`. Then entry (r, c) of the block the body stores is the layer's
  function at (row r, c). The only law used is that multiplication of extended reals commutes — the body multiplies each
  pair of factors in the other order — so nothing here needs the inputs finite.
-/
import proofs.«175306_g8718783611330_retrytranche1_1952_17_alg».proof.Proof.GcnPayload
import proofs.«175306_g8718783611330_retrytranche1_1952_17_alg».proof.Proof.GcnSpec

noncomputable section

namespace Cert.KernelIdeal.GcnBody

open Cert.KernelIdeal Cert.KernelIdeal.Gen Idealize.ShloMosaic Idealize.ShloMosaic.ValueIdx

theorem point_value (S : Vec Ideal S16x10000 .f32) (a : Vec Ideal S400x10000 .f32) (β : Vec Ideal S16x1 .f32)
    (x : FVec Ideal S10000x128 .f32) (adj : FVec Ideal S10000x10000 .f32) (W : FVec Ideal S128x16 .f32) (b : FVec Ideal S16 .f32)
    (row : Fin 400 → Fin 10000)
    (hS : ∀ (cc : Fin 16) (j : Fin 10000), S (ix2 cc j) = ∑ k : Fin 128, W (ix2 k cc) * x (ix2 j k))
    (ha : ∀ (r : Fin 400) (j : Fin 10000), a (ix2 r j) = adj (ix2 (row r) j))
    (hβ : ∀ cc : Fin 16, β (ix2 cc (0 : Fin 1)) = b (ix1 cc))
    (r : Fin 400) (cc : Fin 16) :
    k0_pay2 (F := Ideal) S a β (ix2 r cc) = Cert.Gcn.out x adj W b (ix2 (row r) cc) := by
  -- the tile's column r is node (row r)'s logits
  have htile : ∀ k : Fin 16, tile S a β (ix2 k r) = Cert.Gcn.logit x adj W b (row r) k := fun k => by
    rw [tile_eq, hβ]
    unfold Cert.Gcn.logit Cert.Gcn.support
    refine congrArg (· + b (ix1 k)) (Finset.sum_congr rfl fun j _ => ?_)
    rw [hS, ha, mul_comm]
    exact congrArg (adj (ix2 (row r) j) * ·) (Finset.sum_congr rfl fun k' _ => mul_comm _ _)
  -- so its maximum is that node's row maximum
  have hmax : colMax (tile S a β) r = Cert.Gcn.rowMax x adj W b (row r) := by
    unfold colMax Cert.Gcn.rowMax
    exact congrArg (fun f => (Finset.univ : Finset (Fin 16)).fold max Cert.Gcn.negInf f) (funext htile)
  rw [pay2_eq, softT_apply, Cert.Gcn.out_ix2]
  unfold Cert.Gcn.logSumExp Cert.Gcn.shifted
  rw [hmax, htile]
  refine congrArg (fun e => (Cert.Gcn.logit x adj W b (row r) cc - Cert.Gcn.rowMax x adj W b (row r)) - Ideal.log e) ?_
  exact Finset.sum_congr rfl fun k _ => by rw [htile]

end Cert.KernelIdeal.GcnBody

end
-- ==== Proof.GcnBlocks.lean ====
/-
  From the grid's twenty-five points to the whole result array.

  The scratch is written once, at the first point, with the transposed feature product of the whole W and x arrays (their
  windows' one block is the whole array), and no later point stores into it: after EVERY point it holds that product. So
  at every point the stored output block is computed from that product, the point's 400 adjacency rows and the bias, and
  by the per-point lemma it is rows 400·t … 400·t + 399 of the layer's function of the argument arrays. The twenty-five
  output blocks tile the 10000 rows, so the result array ends holding the layer's function everywhere.
-/
import proofs.«175306_g8718783611330_retrytranche1_1952_17_alg».proof.Proof.Gen.KernelIdeal.Value
import proofs.«175306_g8718783611330_retrytranche1_1952_17_alg».proof.Proof.GcnPieces
import proofs.«175306_g8718783611330_retrytranche1_1952_17_alg».proof.Proof.GcnPoint
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.GcnValue

open Cert.KernelIdeal Cert.KernelIdeal.Gen Cert.KernelIdeal.Value Cert.KernelIdeal.GcnPieces Cert.KernelIdeal.GcnBody
open Idealize.ShloMosaic.ValueIdx

variable (m : (ℓ : Loc nD τ sig) → Buf (Elt Ideal) ℓ) (ρ : Dev nD → PrngReg)

/-! ## The scratch after every point -/

/-- The grid's first point. -/
def t0 : Fin cfg0.N := ⟨0, by rw [show cfg0.N = 25 from N_0]; decide⟩

/-- What the first point stores into the scratch: the body's first product of that point's W and x blocks. -/
def scr (c : Dev nD) : Vec Ideal S16x10000 .f32 := k0_pay1 (iblk m c 1 t0) (iblk m c 0 t0)

/-- The first point leaves its product in the scratch. -/
theorem scratch_first (c : Dev nD) : (outsAt0 m c t0.val t0.isLt).2 = scr m c := by
  rw [outsAt0_A m c t0 (Nat.zero_mod 25)]
  dsimp only
  unfold scr
  exact scratchA_eq c (grid0.coords t0) (ms0_0 t0) (hs0_0 t0) (ms0_1 t0) (hs0_1 t0) (ms0_2 t0) (hs0_2 t0) (ms0_3 t0) (hs0_3 t0) (ms0_4 t0) (hs0_4 t0) scM0_0 (Memref.isWhole_whole _) ((hcond0_0 t0).mpr (Nat.zero_mod 25)) (iblk m c 0 t0) (iblk m c 1 t0) (iblk m c 2 t0) (iblk m c 3 t0)

/-- The scratch holds the first point's product after every point: stored at point 0, carried unchanged afterwards. -/
theorem scratch_inv (c : Dev nD) : ∀ (n : ℕ) (hn : n < cfg0.N), (outsAt0 m c n hn).2 = scr m c := by
  intro n
  induction n with
  | zero =>
    intro hn
    exact scratch_first m c
  | succ n ih =>
    intro hn
    have hN : n + 1 < 25 := lt_of_lt_of_eq hn (show cfg0.N = 25 from N_0)
    have h0 : ¬(n + 1) % 25 = 0 := by omega
    show (outsAt0 m c (⟨n + 1, hn⟩ : Fin cfg0.N).val (⟨n + 1, hn⟩ : Fin cfg0.N).isLt).2 = scr m c
    rw [outsAt0_B m c ⟨n + 1, hn⟩ h0]
    dsimp only
    unfold sout0_B_0
    first
      | exact ih _
      | (simp only [Nat.add_sub_cancel]; exact ih _)

/-- So every point's output block is the body's second value of the product, the point's adjacency block and the bias block. -/
theorem out_at (c : Dev nD) (t : Fin cfg0.N) :
    (outsAt0 m c t.val t.isLt).1 = k0_pay2 (scr m c) (iblk m c 3 t) (iblk m c 2 t) := by
  by_cases h0 : t.val % 25 = 0
  · have ht : t = t0 := Fin.ext (by
      have hN : t.val < 25 := lt_of_lt_of_eq t.isLt (show cfg0.N = 25 from N_0)
      show t.val = 0; omega)
    subst ht
    rw [outsAt0_A m c t0 h0]
    dsimp only
    unfold scr
    exact outA_eq c (grid0.coords t0) (ms0_0 t0) (hs0_0 t0) (ms0_1 t0) (hs0_1 t0) (ms0_2 t0) (hs0_2 t0) (ms0_3 t0) (hs0_3 t0) (ms0_4 t0) (hs0_4 t0) scM0_0 (Memref.isWhole_whole _) ((hcond0_0 t0).mpr h0) (iblk m c 0 t0) (iblk m c 1 t0) (iblk m c 2 t0) (iblk m c 3 t0)
  · rw [outsAt0_B m c t h0]
    dsimp only
    rw [scratch_inv m c (t.val - 1) (Nat.lt_of_le_of_lt (Nat.sub_le _ _) t.isLt)]
    exact outB_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (scr m c)

/-! ## The blocks read off the arrays -/

/-- The argument arrays as the region finds them, each at its literal type (the region-entry contents are a fold over @main's
    host prefix: they stay folded behind these names). -/
def argX (c : Dev nD) : FVec Ideal S10000x128 .f32 := V m c main_arg0
def argA (c : Dev nD) : FVec Ideal S10000x10000 .f32 := V m c main_arg1
def argW (c : Dev nD) : FVec Ideal S128x16 .f32 := V m c main_arg2
def argB (c : Dev nD) : FVec Ideal S16 .f32 := m ((c : Thread nD τ).loc main_arg3)

/-- The printed index maps over the grid: the x, W and bias windows stay on their one block; the adjacency and output
    windows move down one block of rows per point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of point `t`'s block is row 400·t + r of the array. -/
def rowOf (t : Fin cfg0.N) (r : Fin 400) : Fin 10000 :=
  ⟨t.val * 400 + r.val, by
    have hN : t.val < 25 := lt_of_lt_of_eq t.isLt (show cfg0.N = 25 from N_0)
    have hr := r.isLt
    omega⟩

theorem xblk_apply (c : Dev nD) (t : Fin cfg0.N) (j : Fin 10000) (k : Fin 128) :
    iblk m c 0 t (ix2 j k) = argX m c (ix2 j k) := by
  obtain ⟨e0, e1, -⟩ := idx_facts t
  show V m c main_arg0 (((cfg0.win 0).blk t).view.emb (ix2 j k)) = V m c main_arg0 (ix2 j k)
  refine congrArg (V m c main_arg0) (funext fun a => Fin.ext ?_)
  match a with
  | ⟨0, _⟩ => show win0_0.index t (0 : Fin 2) * 10000 + 1 * j.val = j.val; omega
  | ⟨1, _⟩ => show win0_0.index t (1 : Fin 2) * 128 + 1 * k.val = k.val; omega

theorem wblk_apply (c : Dev nD) (t : Fin cfg0.N) (k : Fin 128) (cc : Fin 16) :
    iblk m c 1 t (ix2 k cc) = argW m c (ix2 k cc) := by
  obtain ⟨-, -, e2, e3, -⟩ := idx_facts t
  show V m c main_arg2 (((cfg0.win 1).blk t).view.emb (ix2 k cc)) = V m c main_arg2 (ix2 k cc)
  refine congrArg (V m c main_arg2) (funext fun a => Fin.ext ?_)
  match a with
  | ⟨0, _⟩ => show win0_1.index t (0 : Fin 2) * 128 + 1 * k.val = k.val; omega
  | ⟨1, _⟩ => show win0_1.index t (1 : Fin 2) * 16 + 1 * cc.val = cc.val; omega

theorem ablk_apply (c : Dev nD) (t : Fin cfg0.N) (r : Fin 400) (j : Fin 10000) :
    iblk m c 3 t (ix2 r j) = argA m c (ix2 (rowOf t r) j) := by
  obtain ⟨-, -, -, -, -, -, e6, e7, -⟩ := idx_facts t
  show V m c main_arg1 (((cfg0.win 3).blk t).view.emb (ix2 r j)) = V m c main_arg1 (ix2 (rowOf t r) j)
  refine congrArg (V m c main_arg1) (funext fun a => Fin.ext ?_)
  match a with
  | ⟨0, _⟩ => show win0_3.index t (0 : Fin 2) * 400 + 1 * r.val = t.val * 400 + r.val; omega
  | ⟨1, _⟩ => show win0_3.index t (1 : Fin 2) * 10000 + 1 * j.val = j.val; omega

/-- The bias window's array is written by @main before the region: the bias vector cast to a column. -/
theorem bias_entry (c : Dev nD) :
    (V m c main_v0 : S16x1.Idx → EReal) = shapeCast S16x1 (m ((c : Thread nD τ).loc main_arg3)) shapeCasts_S16_S16x1 := by
  dsimp only [Gen.V, Gen.hostOps0]; after_results; rfl

theorem bblk_apply (c : Dev nD) (t : Fin cfg0.N) (cc : Fin 16) :
    iblk m c 2 t (ix2 cc (0 : Fin 1)) = argB m c (ix1 cc) := by
  obtain ⟨-, -, -, -, e4, e5, -⟩ := idx_facts t
  have h1 : iblk m c 2 t (ix2 cc (0 : Fin 1)) = V m c main_v0 (ix2 cc (0 : Fin 1)) := by
    show V m c main_v0 (((cfg0.win 2).blk t).view.emb (ix2 cc (0 : Fin 1))) = V m c main_v0 (ix2 cc (0 : Fin 1))
    refine congrArg (V m c main_v0) (funext fun a => Fin.ext ?_)
    match a with
    | ⟨0, _⟩ => show win0_2.index t (0 : Fin 2) * 16 + 1 * cc.val = cc.val; omega
    | ⟨1, _⟩ => show win0_2.index t (1 : Fin 2) * 1 + 1 * 0 = 0; omega
  rw [h1, bias_entry]
  unfold argB
  exact shapeCast_apply _ shapeCasts_S16_S16x1 (ix2 cc (0 : Fin 1)) (ix1 cc) (by
    rw [Shape.rowMajor_val_two, Shape.rowMajor_val_one]
    show cc.val = cc.val * 1 + 0
    omega)

/-- The scratch's contents at (class, node): the feature product of the W and x arrays, transposed. -/
theorem scr_apply (c : Dev nD) (cc : Fin 16) (j : Fin 10000) :
    scr m c (ix2 cc j) = ∑ k : Fin 128, argW m c (ix2 k cc) * argX m c (ix2 j k) := by
  unfold scr
  refine (pay1_apply (iblk m c 1 t0) (iblk m c 0 t0) cc j).trans ?_
  exact Finset.sum_congr rfl fun k _ => by rw [wblk_apply m c t0 k cc, xblk_apply m c t0 j k]

/-! ## What each point writes back, the cover, the array -/

/-- The layer's function of the arrays as the region finds them. -/
def G (c : Dev nD) : S10000x16.Idx → EReal :=
  Cert.Gcn.out (argX m c) (argA m c) (argW m c) (argB m c)

/-- Point `t` writes back block `t` of the layer's function. -/
theorem flushed_eq (c : Dev nD) (t : Fin cfg0.N) :
    (dats m 0 c).flushed 4 t = ((cfg0.win 4).blk t).view.read (Elt Ideal) (G m c) := by
  rw [flushed4 m c t, out_at m c t]
  obtain ⟨-, -, -, -, -, -, -, -, e8, e9⟩ := idx_facts t
  funext y
  obtain ⟨r, cc, rfl⟩ : ∃ (r : Fin 400) (cc : Fin 16), y = ix2 r cc := ⟨y 0, y 1, eq_ix2 y⟩
  show k0_pay2 (scr m c) (iblk m c 3 t) (iblk m c 2 t) (ix2 r cc) = G m c (((cfg0.win 4).blk t).view.emb (ix2 r cc))
  have hemb : ((cfg0.win 4).blk t).view.emb (ix2 r cc) = ix2 (rowOf t r) cc := by
    funext a; apply Fin.ext
    match a with
    | ⟨0, _⟩ => show win0_4.index t (0 : Fin 2) * 400 + 1 * r.val = t.val * 400 + r.val; omega
    | ⟨1, _⟩ => show win0_4.index t (1 : Fin 2) * 16 + 1 * cc.val = cc.val; omega
  rw [hemb]
  exact point_value (scr m c) (iblk m c 3 t) (iblk m c 2 t) (argX m c) (argA m c) (argW m c) (argB m c)
    (rowOf t) (scr_apply m c) (ablk_apply m c t) (bblk_apply m c t) r cc

/-- An index of the result array is in point `t`'s block iff each coordinate is in the block's range on its axis. -/
theorem mem_blk (t : Fin cfg0.N) (i : S10000x16.Idx) :
    i ∈ ((cfg0.win 4).blk t).view.set ↔ ∀ a : Fin 2, win0_4.index t a * S400x16.size a ≤ (i a).val ∧ (i a).val < win0_4.index t a * S400x16.size a + S400x16.size a := by
  show i ∈ ((View.whole main_v1).slice (win0_4.rect t)).set ↔ _
  rw [View.set_slice_whole, Rect.mem_set_unit]
  exact Iff.rfl

/-- Every row belongs to one point's block: row `i` to point `i / 400`. -/
theorem cover (i : S10000x16.Idx) : ∃ t : Fin cfg0.N, (cfg0.win 4).flush t = true ∧ i ∈ ((cfg0.win 4).blk t).view.set := by
  have hi0 : (i 0).val < 10000 := (i 0).isLt
  have hi1 : (i 1).val < 16 := (i 1).isLt
  obtain ⟨t, ht⟩ : ∃ t : Fin cfg0.N, t.val = (i 0).val / 400 :=
    ⟨⟨(i 0).val / 400, by rw [show cfg0.N = 25 from N_0]; omega⟩, rfl⟩
  obtain ⟨-, -, -, -, -, -, -, -, e8, e9⟩ := idx_facts t
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 16 ≤ (i 1).val ∧ (i 1).val < win0_4.index t (1 : Fin 2) * 16 + 16; omega

/-- The result array after the run is the layer's function of the arrays as the region finds them. -/
theorem final (c : Dev nD) : (dats m 0 c).arrAt 4 cfg0.N = G m c :=
  (dats m 0 c).arrAt_eq_of_cover 4 (G m c) (fun t _ => flushed_eq m c t) cover

/-- The region finds the three argument arrays it stages as launched. -/
theorem G_eq (c : Dev nD) :
    G m c = Cert.Gcn.out (m ((c : Thread nD τ).loc main_arg0)) (m ((c : Thread nD τ).loc main_arg1))
      (m ((c : Thread nD τ).loc main_arg2)) (m ((c : Thread nD τ).loc main_arg3)) := by
  unfold G argX argA argW argB
  rw [V_main_arg0, V_main_arg1, V_main_arg2]

/-! ## The run -/

/-- Every weakly fair execution of the idealized kernel terminates with the result array at the layer's function of the
    argument arrays, and the arguments unchanged. -/
theorem run : θ_run defs (onTc (τ := τ) (main (F := Ideal))) ⟨m, fun _ => 0, ρ⟩ fun r => ∀ c : Dev nD,
      r.2.mem ((c : Thread nD τ).loc main_v1)
          = Cert.Gcn.out (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (G_eq m c)), (h c).2⟩) (run_blocks m ρ)

end Cert.KernelIdeal.GcnValue

end
-- ==== Proof.lean ====
/-
  The certificate of a graph-convolution layer with a row-wise log-softmax: the Pallas kernel against its jnp reference.

  The kernel walks the 10000 rows of the dense adjacency matrix in twenty-five blocks of 400. At the first block it forms,
  once, the class-by-node matrix (x · W)ᵀ and keeps it in a scratch buffer across the grid; at every block it multiplies that
  matrix by the block's rows (contracting the node axis of both), adds the bias down the classes, subtracts each node's
  largest logit, subtracts the logarithm of the sum of the exponentials, and writes the 400 × 16 tile transposed. The
  reference computes log_softmax(adj · (x · W) + b) with two host products, a row maximum, a row sum and broadcasts.

  Read over the extended reals both are ONE function of the four argument arrays (`Cert.Gcn.out`, Proof/GcnSpec.lean):
  for node i and class c, with logit i c = (∑ j, adj(i, j) · (∑ k, x(j, k) · W(k, c))) + b(c) and M i the maximum of node i's
  logits taken from −∞,
      out(i, c) = (logit i c − M i) − log ∑ c', exp (logit i c' − M i).
  The kernel's side: each point's stored block is rows 400·t … 400·t + 399 of that function (Proof/GcnPayload.lean reads the
  body's arithmetic at an index, Proof/GcnPoint.lean sets it against the function, Proof/GcnPieces.lean and
  Proof/GcnBlocks.lean carry the scratch across the grid and tile the blocks into the array). The reference's side: its run
  (Proof/GcnRefRun.lean) read at an index (Proof/GcnRefValue.lean). The two differ in the order of the factors of each
  product, in the reduction primitives, and in a second maximum against −∞ on the reference's side; commutativity of
  multiplication and `max a (fold max a f) = fold max a f` join them, so the finiteness precondition is never opened.
  The three frames are the programs' runs with the result forgotten; the idealization rewrote nothing, so `preserves` is
  trivially true.
-/
import proofs.«175306_g8718783611330_retrytranche1_1952_17_alg».proof.Defs
import proofs.«175306_g8718783611330_retrytranche1_1952_17_alg».proof.Proof.Gen.Kernel
import proofs.«175306_g8718783611330_retrytranche1_1952_17_alg».proof.Proof.Gen.Kernel.Skeleton
import proofs.«175306_g8718783611330_retrytranche1_1952_17_alg».proof.Proof.Gen.Kernel.Launch
import proofs.«175306_g8718783611330_retrytranche1_1952_17_alg».proof.Proof.Gen.Kernel.Points
import proofs.«175306_g8718783611330_retrytranche1_1952_17_alg».proof.Proof.Gen.Kernel.Frame
import proofs.«175306_g8718783611330_retrytranche1_1952_17_alg».proof.Proof.Gen.KernelIdeal
import proofs.«175306_g8718783611330_retrytranche1_1952_17_alg».proof.Proof.Gen.KernelIdeal.Skeleton
import proofs.«175306_g8718783611330_retrytranche1_1952_17_alg».proof.Proof.Gen.KernelIdeal.Launch
import proofs.«175306_g8718783611330_retrytranche1_1952_17_alg».proof.Proof.Gen.KernelIdeal.Points
import proofs.«175306_g8718783611330_retrytranche1_1952_17_alg».proof.Proof.Gen.KernelIdeal.Frame
import proofs.«175306_g8718783611330_retrytranche1_1952_17_alg».proof.Proof.Gen.ReferenceIdeal
import proofs.«175306_g8718783611330_retrytranche1_1952_17_alg».proof.Proof.Gen.Pre_finite_inputs
import proofs.«175306_g8718783611330_retrytranche1_1952_17_alg».proof.Proof.Gen.KernelIdeal.Value
import proofs.«175306_g8718783611330_retrytranche1_1952_17_alg».proof.Proof.GcnRefRun
import proofs.«175306_g8718783611330_retrytranche1_1952_17_alg».proof.Proof.GcnRefValue
import proofs.«175306_g8718783611330_retrytranche1_1952_17_alg».proof.Proof.GcnBlocks
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the four arguments both idealized programs end with the layer's function of them in the
    result: the kernel by its blocks, the reference by its stages read at an index. -/
theorem algebraic : Cert.algebraic_KernelIdeal_ReferenceIdeal := by
  intro m ρ m' ρ' _ hagree
  refine ⟨_, Cert.KernelIdeal.GcnValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
